-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2000000 : Shape := ⟨1, ![2000000]⟩
abbrev S24x128 : Shape := ⟨2, ![24, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x1 .f32) (main_arg8 : FVec F S1 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S100000x12 .f32) (main_arg1 : IVec S2000000 32) (main_arg2 : IVec S2000000 32) (main_arg3 : FVec F S24x128 .f32) (main_arg4 : FVec F S128 .f32) (main_arg5 : FVec F S128x128 .f32) (main_arg6 : FVec F S128 .f32) (main_arg7 : FVec F S128x1 .f32) (main_arg8 : FVec F S1 .f32) (main_arg9 : FVec F S128x1 .f32) (main_arg10 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S24x128 .f32 := Host.absf main_arg3
  let main_cst_0 : FVec F S_ .f32 := constant S_ .f32 0x7F800000#32
  let main_v5 : FVec F S24x128 .f32 := broadcastInDim S24x128 ![] bcast_S_S24x128 main_cst_0
  let main_v6 : IVec S24x128 1 := cmpf .olt main_v4 main_v5
  let main_c_1 : IVec S_ 1 := constantI S_ 1 1#1
  let main_v7 : IVec S_ 1 := (fun x v => Host.reduce IntOp.andi x v reducesTo_S24x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x12 : Shape := ⟨2, ![100000, 12]⟩
abbrev S2000000 : Shape := ⟨1, ![2000000]⟩
abbrev S24x128 : Shape := ⟨2, ![24, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S2000000x1 : Shape := ⟨2, ![2000000, 1]⟩
abbrev S2000000x12 : Shape := ⟨2, ![2000000, 12]⟩
abbrev S2000000x24 : Shape := ⟨2, ![2000000, 24]⟩
abbrev S4000x24 : Shape := ⟨2, ![4000, 24]⟩
abbrev S4000x1 : Shape := ⟨2, ![4000, 1]⟩
abbrev S4000x128 : Shape := ⟨2, ![4000, 128]⟩
abbrev S1x128 : Shape := ⟨2, ![1, 128]⟩
abbrev S1x1 : Shape := ⟨2, ![1, 1]⟩

abbrev nBuf : Space → Nat
  | .hbm => 46
  | .vmem => 14
  | .smem => 0
  | _ => 0

abbrev bufTy : (tb : Table) → Fin (tcTables nBuf tb) → BufTy
  | .hbm, ⟨0, _⟩ => ⟨S100000x12, .f32⟩
  | .hbm, ⟨1, _⟩ => ⟨S2000000, .i32⟩
  | .hbm, ⟨2, _⟩ => ⟨S2000000, .i32⟩
  | .hbm, ⟨3, _⟩ => ⟨S24x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1, .f32⟩
  | .hbm, ⟨11, _⟩ => ⟨S100000x12, .bf16⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x12, .bf16⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x12, .bf16⟩
  | .hbm, ⟨30, _⟩ => ⟨S2000000x24, .bf16⟩
  | .hbm, ⟨31, _⟩ => ⟨S24x128, .bf16⟩
  | .hbm, ⟨32, _⟩ => ⟨S128x128, .bf16⟩
  | .hbm, ⟨33, _⟩ => ⟨S128x1, .bf16⟩
  | .hbm, ⟨34, _⟩ => ⟨S128x1, .bf16⟩
  | .hbm, ⟨35, _⟩ => ⟨S2000000x1, .f32⟩
  | .hbm, ⟨36, _⟩ => ⟨S2000000x1, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S_, .f32⟩
  | .hbm, ⟨41, _⟩ => ⟨S1x1, .f32⟩
  | .hbm, ⟨42, _⟩ => ⟨S1x1, .f32⟩
  | .hbm, ⟨43, _⟩ => ⟨S2000000x1, .f32⟩
  | .hbm, ⟨44, _⟩ => ⟨S2000000x1, .f32⟩
  | .hbm, ⟨45, _⟩ => ⟨S2000000, .f32⟩
  | .local _ .vmem, ⟨0, _⟩ => ⟨S4000x24, .bf16⟩
  | .local _ .vmem, ⟨1, _⟩ => ⟨S4000x24, .bf16⟩
  | .local _ .vmem, ⟨2, _⟩ => ⟨S24x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x1, .bf16⟩
  | .local _ .vmem, ⟨7, _⟩ => ⟨S1, .f32⟩
  | .local _ .vmem, ⟨8, _⟩ => ⟨S128x1, .bf16⟩
  | .local _ .vmem, ⟨9, _⟩ => ⟨S1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S4000x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x24 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x12_S2000000x12_S2000000x24_d1 : Shape.Concatenates [S2000000x12, S2000000x12] S2000000x24 1
  inb_S4000x24_S4000x24_0_0 : ∀ a, (![0, 0] : Fin 2 → Nat) a + S4000x24.size a ≤ S4000x24.size a
  h_S4000x24 : 0 < S4000x24.numel
  shapeCasts_S4000x24_S4000x24 : S4000x24.ShapeCasts S4000x24
  inb_S24x128_S24x128_0_0 : ∀ a, (![0, 0] : Fin 2 → Nat) a + S24x128.size a ≤ S24x128.size a
  h_S24x128 : 0 < S24x128.numel
  shapeCasts_S24x128_S24x128 : S24x128.ShapeCasts S24x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  reducesTo_S2000000x1_S1_d0 : S2000000x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  gather_S100000x12_S2000000x1_S2000000x12_1_0_n_n_0_1_112_wf : GatherDims.WF S100000x12 S2000000x1 S2000000x12 [1] [0] [] [0] [] 1 ![1, 12]
  dot_S4000x24_S24x128_S4000x128_1_0_0_1_n_n_wf : DotDims.WF S4000x24 S24x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x24.size a ≤ S2000000x24.size a
  hwx0_0 : ∀ i : grid0.Coords, EltTy.bits .bf16 = 32 ∨ (Rect.block (s := S2000000x24) S4000x24.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .bf16 = 32 ∨ (Rect.block (s := S24x128) S24x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S2000000x1.size a
  hwx0_9 : ∀ i : grid0.Coords, EltTy.bits .f32 = 32 ∨ (Rect.block (s := S2000000x1) S4000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x1.size a ≤ S2000000x1.size a
  hwx0_10 : ∀ i : grid0.Coords, EltTy.bits .f32 = 32 ∨ (Rect.block (s := S2000000x1) S4000x1.size (cc0_transform_10 i) (hinb0_10 i)).WholeWords (EltTy.packing .f32)

variable [Facts₀]

def gather_S100000x12_S2000000x1_S2000000x12_1_0_n_n_0_1_112 : GatherDims S100000x12 S2000000x1 S2000000x12 where
  offsetDims := [1]
  collapsedSliceDims := [0]
  operandBatchingDims := []
  startIndicesBatchingDims := []
  startIndexMap := [0]
  indexVectorDim := 1
  sliceSizes := ![1, 12]
  wf := gather_S100000x12_S2000000x1_S2000000x12_1_0_n_n_0_1_112_wf
def dot_S4000x24_S24x128_S4000x128_1_0_0_1_n_n : DotDims S4000x24 S24x128 S4000x128 where
  lhsContracting := [1]
  rhsContracting := [0]
  lhsNonContracting := [0]
  rhsNonContracting := [1]
  lhsBatch := []
  rhsBatch := []
  wf := dot_S4000x24_S24x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v15) S4000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_0) S4000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_1) S4000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x12 : Shape := ⟨2, ![100000, 12]⟩
abbrev S2000000 : Shape := ⟨1, ![2000000]⟩
abbrev S24x128 : Shape := ⟨2, ![24, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S2000000x1 : Shape := ⟨2, ![2000000, 1]⟩
abbrev S2000000x12 : Shape := ⟨2, ![2000000, 12]⟩
abbrev S2000000x24 : Shape := ⟨2, ![2000000, 24]⟩
abbrev S2000000x128 : Shape := ⟨2, ![2000000, 128]⟩
abbrev S1x128 : Shape := ⟨2, ![1, 128]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2000000, .i32⟩
  | .hbm, ⟨2, _⟩ => ⟨S2000000, .i32⟩
  | .hbm, ⟨3, _⟩ => ⟨S24x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x12, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x12, .f32⟩
  | .hbm, ⟨29, _⟩ => ⟨S2000000x24, .f32⟩
  | .hbm, ⟨30, _⟩ => ⟨S2000000x128, .f32⟩
  | .hbm, ⟨31, _⟩ => ⟨S1x128, .f32⟩
  | .hbm, ⟨32, _⟩ => ⟨S2000000x128, .f32⟩
  | .hbm, ⟨33, _⟩ => ⟨S2000000x128, .f32⟩
  | .hbm, ⟨34, _⟩ => ⟨S_, .f32⟩
  | .hbm, ⟨35, _⟩ => ⟨S2000000x128, .f32⟩
  | .hbm, ⟨36, _⟩ => ⟨S2000000x128, .f32⟩
  | .hbm, ⟨37, _⟩ => ⟨S2000000x128, .f32⟩
  | .hbm, ⟨38, _⟩ => ⟨S1x128, .f32⟩
  | .hbm, ⟨39, _⟩ => ⟨S2000000x128, .f32⟩
  | .hbm, ⟨40, _⟩ => ⟨S2000000x128, .f32⟩
  | .hbm, ⟨41, _⟩ => ⟨S_, .f32⟩
  | .hbm, ⟨42, _⟩ => ⟨S2000000x128, .f32⟩
  | .hbm, ⟨43, _⟩ => ⟨S2000000x128, .f32⟩
  | .hbm, ⟨44, _⟩ => ⟨S2000000x1, .f32⟩
  | .hbm, ⟨45, _⟩ => ⟨S1x1, .f32⟩
  | .hbm, ⟨46, _⟩ => ⟨S2000000x1, .f32⟩
  | .hbm, ⟨47, _⟩ => ⟨S2000000x1, .f32⟩
  | .hbm, ⟨48, _⟩ => ⟨S2000000x1, .f32⟩
  | .hbm, ⟨49, _⟩ => ⟨S1x1, .f32⟩
  | .hbm, ⟨50, _⟩ => ⟨S2000000x1, .f32⟩
  | .hbm, ⟨51, _⟩ => ⟨S2000000x1, .f32⟩
  | .hbm, ⟨52, _⟩ => ⟨S_, .f32⟩
  | .hbm, ⟨53, _⟩ => ⟨S1, .f32⟩
  | .hbm, ⟨54, _⟩ => ⟨S1x1, .f32⟩
  | .hbm, ⟨55, _⟩ => ⟨S_, .f32⟩
  | .hbm, ⟨56, _⟩ => ⟨S1x1, .f32⟩
  | .hbm, ⟨57, _⟩ => ⟨S1x1, .f32⟩
  | .hbm, ⟨58, _⟩ => ⟨S2000000x1, .f32⟩
  | .hbm, ⟨59, _⟩ => ⟨S2000000x1, .f32⟩
  | .hbm, ⟨60, _⟩ => ⟨S2000000x1, .f32⟩
  | .hbm, ⟨61, _⟩ => ⟨S2000000, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x12_S2000000x12_S2000000x24_d1 : Shape.Concatenates [S2000000x12, S2000000x12] S2000000x24 1
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S1_d0 : S2000000x1.ReducesTo [0] S1
  h_S_ : 0 < S_.numel
  bcast_S_S1x1 : S_.BroadcastsInDim S1x1 (![] : Fin 0 → Fin S1x1.rank)
  shapeCasts_S2000000x1_S2000000 : S2000000x1.ShapeCasts S2000000
  gather_S100000x12_S2000000x1_S2000000x12_1_0_n_n_0_1_112_wf : GatherDims.WF S100000x12 S2000000x1 S2000000x12 [1] [0] [] [0] [] 1 ![1, 12]
  dot_S2000000x24_S24x128_S2000000x128_1_0_0_1_n_n_wf : DotDims.WF S2000000x24 S24x128 S2000000x128 [1] [0] [0] [1] [] []
  dot_S2000000x128_S128x128_S2000000x128_1_0_0_1_n_n_wf : DotDims.WF S2000000x128 S128x128 S2000000x128 [1] [0] [0] [1] [] []
  dot_S2000000x128_S128x1_S2000000x1_1_0_0_1_n_n_wf : DotDims.WF S2000000x128 S128x1 S2000000x1 [1] [0] [0] [1] [] []

variable [Facts₀]

def gather_S100000x12_S2000000x1_S2000000x12_1_0_n_n_0_1_112 : GatherDims S100000x12 S2000000x1 S2000000x12 where
  offsetDims := [1]
  collapsedSliceDims := [0]
  operandBatchingDims := []
  startIndicesBatchingDims := []
  startIndexMap := [0]
  indexVectorDim := 1
  sliceSizes := ![1, 12]
  wf := gather_S100000x12_S2000000x1_S2000000x12_1_0_n_n_0_1_112_wf
def dot_S2000000x24_S24x128_S2000000x128_1_0_0_1_n_n : DotDims S2000000x24 S24x128 S2000000x128 where
  lhsContracting := [1]
  rhsContracting := [0]
  lhsNonContracting := [0]
  rhsNonContracting := [1]
  lhsBatch := []
  rhsBatch := []
  wf := dot_S2000000x24_S24x128_S2000000x128_1_0_0_1_n_n_wf
def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf

class Facts : Prop extends Facts₀ where

variable [Facts]
-- ==== Proof.Windows.lean ====
/-
  The blocks the kernel body sees at a grid point, and which rows of the output arrays each point writes.

  The grid has 500 points; point `t` is handed rows `4000 t … 4000 t + 3999` of the edge-embedding array and
  writes the same rows of the two output columns. Every other operand (the four weight matrices and the four
  bias vectors) is a single block, the whole array, at every point. The weight matrices reach the kernel
  through a change of float format, which on the extended reals is the identity.
-/
import proofs.«153222_j12867722018988_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section
namespace Cert.KernelIdeal.KVal
open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ)

/-! ## Where each window's block sits -/

/-- The printed index maps, decided once over the 500 grid points: the edge rows and the two output columns
    move one block of rows per point, every other operand stays at its only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The weight matrices as the region finds them: the arguments themselves -/

theorem entry_v16 (c : Dev nD) : (V m c main_v16 : S24x128.Idx → EReal) = m ((c : Thread nD τ).loc main_arg3) := by
  show StableHlo.after hostOps0 (fun b => m (c, b)) (Proc.devRef .tc main_v16) = _
  after_results
  rfl

theorem entry_v17 (c : Dev nD) : (V m c main_v17 : S128x128.Idx → EReal) = m ((c : Thread nD τ).loc main_arg5) := by
  show StableHlo.after hostOps0 (fun b => m (c, b)) (Proc.devRef .tc main_v17) = _
  after_results
  rfl

theorem entry_v18 (c : Dev nD) : (V m c main_v18 : S128x1.Idx → EReal) = m ((c : Thread nD τ).loc main_arg7) := by
  show StableHlo.after hostOps0 (fun b => m (c, b)) (Proc.devRef .tc main_v18) = _
  after_results
  rfl

theorem entry_v19 (c : Dev nD) : (V m c main_v19 : S128x1.Idx → EReal) = m ((c : Thread nD τ).loc main_arg9) := by
  show StableHlo.after hostOps0 (fun b => m (c, b)) (Proc.devRef .tc main_v19) = _
  after_results
  rfl

/-! ## The single-block operands: the block is the array -/

theorem block1 (c : Dev nD) (t : Fin cfg0.N) : (iblk m c 1 t : S24x128.Idx → EReal) = V m c main_v16 := by
  obtain ⟨-, -, e0, e1, -⟩ := idx_facts t
  funext y
  show V m c main_v16 (((cfg0.win 1).blk t).view.emb y) = V m c main_v16 y
  refine congrArg _ (funext fun a => Fin.ext ?_)
  match a with
  | ⟨0, _⟩ => show win0_1.index t (0 : Fin 2) * 24 + 1 * (y 0).val = (y 0).val; omega
  | ⟨1, _⟩ => show win0_1.index t (1 : Fin 2) * 128 + 1 * (y 1).val = (y 1).val; omega

theorem block2 (c : Dev nD) (t : Fin cfg0.N) : (iblk m c 2 t : S128.Idx → EReal) = V m c main_arg4 := by
  obtain ⟨-, -, -, -, f2, -, -, f4, -, -, f6, -, -, f8, -⟩ := idx_facts t
  funext y
  show V m c main_arg4 (((cfg0.win 2).blk t).view.emb y) = V m c main_arg4 y
  refine congrArg _ (funext fun a => Fin.ext ?_)
  match a with
  | ⟨0, _⟩ => show win0_2.index t (0 : Fin 1) * 128 + 1 * (y 0).val = (y 0).val; omega

theorem block3 (c : Dev nD) (t : Fin cfg0.N) : (iblk m c 3 t : S128x128.Idx → EReal) = V m c main_v17 := by
  obtain ⟨-, -, -, -, -, e0, e1, -⟩ := idx_facts t
  funext y
  show V m c main_v17 (((cfg0.win 3).blk t).view.emb y) = V m c main_v17 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem block4 (c : Dev nD) (t : Fin cfg0.N) : (iblk m c 4 t : S128.Idx → EReal) = V m c main_arg6 := by
  obtain ⟨-, -, -, -, f2, -, -, f4, -, -, f6, -, -, f8, -⟩ := idx_facts t
  funext y
  show V m c main_arg6 (((cfg0.win 4).blk t).view.emb y) = V m c main_arg6 y
  refine congrArg _ (funext fun a => Fin.ext ?_)
  match a with
  | ⟨0, _⟩ => show win0_4.index t (0 : Fin 1) * 128 + 1 * (y 0).val = (y 0).val; omega

theorem block5 (c : Dev nD) (t : Fin cfg0.N) : (iblk m c 5 t : S128x1.Idx → EReal) = V m c main_v18 := by
  obtain ⟨-, -, -, -, -, -, -, -, e0, e1, -⟩ := idx_facts t
  funext y
  show V m c main_v18 (((cfg0.win 5).blk t).view.emb y) = V m c main_v18 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

theorem block6 (c : Dev nD) (t : Fin cfg0.N) : (iblk m c 6 t : S1.Idx → EReal) = V m c main_arg8 := by
  obtain ⟨-, -, -, -, f2, -, -, f4, -, -, f6, -, -, f8, -⟩ := idx_facts t
  funext y
  show V m c main_arg8 (((cfg0.win 6).blk t).view.emb y) = V m c main_arg8 y
  refine congrArg _ (funext fun a => Fin.ext ?_)
  match a with
  | ⟨0, _⟩ => show win0_6.index t (0 : Fin 1) * 1 + 1 * (y 0).val = (y 0).val; omega

theorem block7 (c : Dev nD) (t : Fin cfg0.N) : (iblk m c 7 t : S128x1.Idx → EReal) = V m c main_v19 := by
  obtain ⟨-, -, -, -, -, -, -, -, -, -, -, e0, e1, -⟩ := idx_facts t
  funext y
  show V m c main_v19 (((cfg0.win 7).blk t).view.emb y) = V m c main_v19 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 1 + 1 * (y 1).val = (y 1).val; omega

theorem block8 (c : Dev nD) (t : Fin cfg0.N) : (iblk m c 8 t : S1.Idx → EReal) = V m c main_arg10 := by
  obtain ⟨-, -, -, -, f2, -, -, f4, -, -, f6, -, -, f8, -⟩ := idx_facts t
  funext y
  show V m c main_arg10 (((cfg0.win 8).blk t).view.emb y) = V m c main_arg10 y
  refine congrArg _ (funext fun a => Fin.ext ?_)
  match a with
  | ⟨0, _⟩ => show win0_8.index t (0 : Fin 1) * 1 + 1 * (y 0).val = (y 0).val; omega

/-! ## The edge rows of a point -/

/-- Row `p` of the block of edge embeddings at point `t` is row `4000 t + p` of the array. -/
theorem edge_block (c : Dev nD) (t : Fin cfg0.N) (p : Fin 4000) (k : Fin 24) (r : Fin 2000000)
    (hr : r.val = t.val * 4000 + p.val) :
    (iblk m c 0 t : S4000x24.Idx → EReal) (ix2 p k) = (V m c main_v15 : S2000000x24.Idx → EReal) (ix2 r k) := by
  obtain ⟨e0, e1, -⟩ := idx_facts t
  show V m c main_v15 (((cfg0.win 0).blk t).view.emb (ix2 p k)) = V m c main_v15 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 24 + 1 * k.val = k.val; omega

end Cert.KernelIdeal.KVal

end
-- ==== Proof.Spec.lean ====
/-
  The network both programs compute, row by row, on the extended reals.

  An edge's input row `x` has 24 entries (the two endpoint embeddings side by side). Two affine layers, each
  followed by the maximum with zero, give 128 hidden features; two affine heads of width one give the edge's
  value and its advantage. Nothing here mentions a program: the entries of the weight matrices and bias
  vectors are read at explicit coordinates, and a sum over the contracted axis is a plain finite sum.
-/
import Idealize.ShloMosaic.PureOps.Ideal
import Idealize.ShloMosaic.Lib.ValueIdx

noncomputable section

namespace Cert.Spec

open Idealize.ShloMosaic Idealize.ShloMosaic.ValueIdx

/-- The zero both programs compare against, kept as the word they print. -/
abbrev zero : EReal := Ideal.ofBits .f32 0x00000000#32

/-- First layer: entry `j` of `max (x · W + b) 0` for an input row of 24 entries. -/
def layer1 (x : Fin 24 → EReal) (W : (⟨2, ![24, 128]⟩ : Shape).Idx → EReal)
    (b : (⟨1, ![128]⟩ : Shape).Idx → EReal) (j : Fin 128) : EReal :=
  max ((∑ k : Fin 24, x k * W (ix2 k j)) + b (ix1 j)) zero

/-- Second layer: entry `j` of `max (h · W + b) 0` for a row of 128 hidden features. -/
def layer2 (h : Fin 128 → EReal) (W : (⟨2, ![128, 128]⟩ : Shape).Idx → EReal)
    (b : (⟨1, ![128]⟩ : Shape).Idx → EReal) (j : Fin 128) : EReal :=
  max ((∑ k : Fin 128, h k * W (ix2 k j)) + b (ix1 j)) zero

/-- The hidden features of an input row after both layers. -/
def hidden (x : Fin 24 → EReal) (W1 : (⟨2, ![24, 128]⟩ : Shape).Idx → EReal) (b1 : (⟨1, ![128]⟩ : Shape).Idx → EReal)
    (W2 : (⟨2, ![128, 128]⟩ : Shape).Idx → EReal) (b2 : (⟨1, ![128]⟩ : Shape).Idx → EReal) : Fin 128 → EReal :=
  layer2 (layer1 x W1 b1) W2 b2

/-- A head of width one: `h · w + b`. -/
def head (h : Fin 128 → EReal) (W : (⟨2, ![128, 1]⟩ : Shape).Idx → EReal)
    (b : (⟨1, ![1]⟩ : Shape).Idx → EReal) : EReal :=
  (∑ k : Fin 128, h k * W (ix2 k 0)) + b (ix1 0)

/-- Subtracting a number from a sum is adding the difference to the first summand: on the extended reals
    subtraction is addition of the negative and addition is associative, so no finiteness is needed. -/
theorem add_sub_regroup (v a mu : EReal) : v + a - mu = v + (a - mu) := by
  rw [sub_eq_add_neg, sub_eq_add_neg, add_assoc]

end Cert.Spec

end
-- ==== Proof.Payload.lean ====
/-
  The kernel body's payloads, read at an index.

  Each payload is a chain of matrix products, bias rows broadcast over the edge rows, maxima with zero and
  changes of float format. On the extended reals a change of format is the identity and a matrix product
  into a zero accumulator is the plain sum over the contracted axis, so at the row `p` the hidden-feature
  payload is the two-layer network of the specification applied to row `p` of the input, and the two head
  payloads are its affine heads.
-/
import proofs.«153222_j12867722018988_2_alg».proof.Proof.Gen.KernelIdeal.Skeleton
import proofs.«153222_j12867722018988_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## A matrix product into the zero accumulator is the sum over the contracted axis

For each of the three products: the four coordinate facts (the left operand is read at the output's row and the
contraction index, the right operand at the contraction index and the output's column), then the product read at
`(p, j)` with its sum re-indexed by the one contracted coordinate. -/

theorem mm1_apply_l0 (i : S4000x128.Idx) (q : dot_S4000x24_S24x128_S4000x128_1_0_0_1_n_n.contr.Idx) : (dot_S4000x24_S24x128_S4000x128_1_0_0_1_n_n.lhsIdx i q 0).val = (i 0).val := by
  unfold DotDims.lhsIdx
  rw [dif_neg (show ¬(0 : Fin S4000x24.rank) ∈ dot_S4000x24_S24x128_S4000x128_1_0_0_1_n_n.lhsBatch by decide),
    dif_pos (show (0 : Fin S4000x24.rank) ∈ dot_S4000x24_S24x128_S4000x128_1_0_0_1_n_n.lhsNonContracting by decide)]
  rfl
theorem mm1_apply_l1 (i : S4000x128.Idx) (q : dot_S4000x24_S24x128_S4000x128_1_0_0_1_n_n.contr.Idx) : (dot_S4000x24_S24x128_S4000x128_1_0_0_1_n_n.lhsIdx i q 1).val = (q ⟨0, by decide⟩).val :=
  dot_S4000x24_S24x128_S4000x128_1_0_0_1_n_n.lhsIdx_val_of_single rfl i q
theorem mm1_apply_r0 (i : S4000x128.Idx) (q : dot_S4000x24_S24x128_S4000x128_1_0_0_1_n_n.contr.Idx) : (dot_S4000x24_S24x128_S4000x128_1_0_0_1_n_n.rhsIdx i q 0).val = (q ⟨0, by decide⟩).val :=
  dot_S4000x24_S24x128_S4000x128_1_0_0_1_n_n.rhsIdx_val_of_single rfl i q
theorem mm1_apply_r1 (i : S4000x128.Idx) (q : dot_S4000x24_S24x128_S4000x128_1_0_0_1_n_n.contr.Idx) : (dot_S4000x24_S24x128_S4000x128_1_0_0_1_n_n.rhsIdx i q 1).val = (i 1).val := by
  unfold DotDims.rhsIdx
  rw [dif_neg (show ¬(1 : Fin S24x128.rank) ∈ dot_S4000x24_S24x128_S4000x128_1_0_0_1_n_n.rhsBatch by decide),
    dif_pos (show (1 : Fin S24x128.rank) ∈ dot_S4000x24_S24x128_S4000x128_1_0_0_1_n_n.rhsNonContracting by decide)]
  rfl

/-- Rows of 24 entries times a 24 × 128 matrix: entry `(p, j)` is `∑ k, l (p, k) * r (k, j)`. -/
theorem mm1_apply (l : FVec Ideal S4000x24 .bf16) (r : FVec Ideal S24x128 .bf16) (p : Fin 4000) (j : Fin 128) :
    matmul dot_S4000x24_S24x128_S4000x128_1_0_0_1_n_n none l r (constant (F := Ideal) S4000x128 .f32 0x00000000#32) (ix2 p j)
      = ∑ k : Fin 24, l (ix2 p k) * r (ix2 k j) := by
  simp only [matmul]
  rw [Ideal.matmul_constant_zero_apply,
    ← Equiv.sum_comp (ValueIdx.contrEquiv1 dot_S4000x24_S24x128_S4000x128_1_0_0_1_n_n 24 rfl rfl).symm]
  refine Finset.sum_congr rfl fun k _ => ?_
  have hk := ValueIdx.contrEquiv1_symm_val dot_S4000x24_S24x128_S4000x128_1_0_0_1_n_n 24 rfl rfl k
  have el : dot_S4000x24_S24x128_S4000x128_1_0_0_1_n_n.lhsIdx (ix2 p j)
      ((ValueIdx.contrEquiv1 dot_S4000x24_S24x128_S4000x128_1_0_0_1_n_n 24 rfl rfl).symm k) = ix2 p k :=
    funext fun a => Fin.ext (by
      match a with
      | ⟨0, _⟩ => exact mm1_apply_l0 _ _
      | ⟨1, _⟩ => exact (mm1_apply_l1 _ _).trans hk)
  have er : dot_S4000x24_S24x128_S4000x128_1_0_0_1_n_n.rhsIdx (ix2 p j)
      ((ValueIdx.contrEquiv1 dot_S4000x24_S24x128_S4000x128_1_0_0_1_n_n 24 rfl rfl).symm k) = ix2 k j :=
    funext fun a => Fin.ext (by
      match a with
      | ⟨0, _⟩ => exact (mm1_apply_r0 _ _).trans hk
      | ⟨1, _⟩ => exact mm1_apply_r1 _ _)
  rw [el, er]

theorem mm2_apply_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem mm2_apply_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm2_apply_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm2_apply_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- Rows of 128 entries times a 128 × 128 matrix: entry `(p, j)` is `∑ k, l (p, k) * r (k, j)`. -/
theorem mm2_apply (l : FVec Ideal S4000x128 .bf16) (r : FVec Ideal S128x128 .bf16) (p : Fin 4000) (j : Fin 128) :
    matmul dot_S4000x128_S128x128_S4000x128_1_0_0_1_n_n none l r (constant (F := Ideal) S4000x128 .f32 0x00000000#32) (ix2 p j)
      = ∑ k : Fin 128, l (ix2 p k) * r (ix2 k j) := by
  simp only [matmul]
  rw [Ideal.matmul_constant_zero_apply,
    ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j)
      ((ValueIdx.contrEquiv1 dot_S4000x128_S128x128_S4000x128_1_0_0_1_n_n 128 rfl rfl).symm k) = ix2 p k :=
    funext fun a => Fin.ext (by
      match a with
      | ⟨0, _⟩ => exact mm2_apply_l0 _ _
      | ⟨1, _⟩ => exact (mm2_apply_l1 _ _).trans hk)
  have er : dot_S4000x128_S128x128_S4000x128_1_0_0_1_n_n.rhsIdx (ix2 p j)
      ((ValueIdx.contrEquiv1 dot_S4000x128_S128x128_S4000x128_1_0_0_1_n_n 128 rfl rfl).symm k) = ix2 k j :=
    funext fun a => Fin.ext (by
      match a with
      | ⟨0, _⟩ => exact (mm2_apply_r0 _ _).trans hk
      | ⟨1, _⟩ => exact mm2_apply_r1 _ _)
  rw [el, er]

theorem mm3_apply_l0 (i : S4000x1.Idx) (q : dot_S4000x128_S128x1_S4000x1_1_0_0_1_n_n.contr.Idx) : (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide),
    dif_pos (show (0 : Fin S4000x128.rank) ∈ dot_S4000x128_S128x1_S4000x1_1_0_0_1_n_n.lhsNonContracting by decide)]
  rfl
theorem mm3_apply_l1 (i : S4000x1.Idx) (q : dot_S4000x128_S128x1_S4000x1_1_0_0_1_n_n.contr.Idx) : (dot_S4000x128_S128x1_S4000x1_1_0_0_1_n_n.lhsIdx i q 1).val = (q ⟨0, by decide⟩).val :=
  dot_S4000x128_S128x1_S4000x1_1_0_0_1_n_n.lhsIdx_val_of_single rfl i q
theorem mm3_apply_r0 (i : S4000x1.Idx) (q : dot_S4000x128_S128x1_S4000x1_1_0_0_1_n_n.contr.Idx) : (dot_S4000x128_S128x1_S4000x1_1_0_0_1_n_n.rhsIdx i q 0).val = (q ⟨0, by decide⟩).val :=
  dot_S4000x128_S128x1_S4000x1_1_0_0_1_n_n.rhsIdx_val_of_single rfl i q
theorem mm3_apply_r1 (i : S4000x1.Idx) (q : dot_S4000x128_S128x1_S4000x1_1_0_0_1_n_n.contr.Idx) : (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide),
    dif_pos (show (1 : Fin S128x1.rank) ∈ dot_S4000x128_S128x1_S4000x1_1_0_0_1_n_n.rhsNonContracting by decide)]
  rfl

/-- Rows of 128 entries times a 128 × 1 column: entry `(p, j)` is `∑ k, l (p, k) * r (k, j)`. -/
theorem mm3_apply (l : FVec Ideal S4000x128 .bf16) (r : FVec Ideal S128x1 .bf16) (p : Fin 4000) (j : Fin 1) :
    matmul dot_S4000x128_S128x1_S4000x1_1_0_0_1_n_n none l r (constant (F := Ideal) S4000x1 .f32 0x00000000#32) (ix2 p j)
      = ∑ k : Fin 128, l (ix2 p k) * r (ix2 k j) := by
  simp only [matmul]
  rw [Ideal.matmul_constant_zero_apply,
    ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p j)
      ((ValueIdx.contrEquiv1 dot_S4000x128_S128x1_S4000x1_1_0_0_1_n_n 128 rfl rfl).symm k) = ix2 p k :=
    funext fun a => Fin.ext (by
      match a with
      | ⟨0, _⟩ => exact mm3_apply_l0 _ _
      | ⟨1, _⟩ => exact (mm3_apply_l1 _ _).trans hk)
  have er : dot_S4000x128_S128x1_S4000x1_1_0_0_1_n_n.rhsIdx (ix2 p j)
      ((ValueIdx.contrEquiv1 dot_S4000x128_S128x1_S4000x1_1_0_0_1_n_n 128 rfl rfl).symm k) = ix2 k j :=
    funext fun a => Fin.ext (by
      match a with
      | ⟨0, _⟩ => exact (mm3_apply_r0 _ _).trans hk
      | ⟨1, _⟩ => exact mm3_apply_r1 _ _)
  rw [el, er]

/-! ## A bias vector laid out as one row and repeated over the edge rows -/

/-- A vector of 128 entries viewed as a 1 × 128 row and repeated over 4000 rows reads, at `(p, j)`, entry `j`. -/
theorem bias128_apply (b : FVec Ideal S128 .f32) (p : Fin 4000) (j : Fin 128) :
    broadcastTo S4000x128 (shapeCast S1x128 b shapeCasts_S128_S1x128) broadcasts_S1x128_S4000x128 (ix2 p j) = b (ix1 j) := by
  rw [broadcastTo_1b_ab_apply, shapeCast_a_1a_apply]

/-- A vector of one entry viewed as a 1 × 1 matrix and repeated over 4000 rows reads, everywhere, that entry. -/
theorem bias1_apply (b : FVec Ideal S1 .f32) (p : Fin 4000) (q : Fin 1) :
    broadcastTo S4000x1 (shapeCast S1x1 b shapeCasts_S1_S1x1) broadcasts_S1x1_S4000x1 (ix2 p q) = b (ix1 0) := by
  rw [broadcastTo_1b_ab_apply, shapeCast_a_1a_apply, Fin.fin_one_eq_zero q]

/-! ## The payloads -/

/-- The hidden-feature payload at `(p, j)` is the specification's two layers applied to row `p` of the input. -/
theorem pay1_apply (x0 : Vec Ideal S4000x24 .bf16) (x1 : Vec Ideal S24x128 .bf16) (x2 : Vec Ideal S128 .f32)
    (x3 : Vec Ideal S128x128 .bf16) (x4 : Vec Ideal S128 .f32) (p : Fin 4000) (j : Fin 128) :
    k0_pay1 (F := Ideal) x0 x1 x2 x3 x4 (ix2 p j) = Cert.Spec.hidden (fun k => x0 (ix2 p k)) x1 x2 x3 x4 j := by
  unfold k0_pay1
  simp only [truncf_apply, maximumf_apply, addf_apply, broadcast_apply, shapeCast_self, mm2_apply, mm1_apply,
    bias128_apply]
  rfl

/-- The advantage-head payload at `(p, q)` is the affine head of the hidden features of row `p`. -/
theorem pay2_apply (x0 : Vec Ideal S4000x24 .bf16) (x1 : Vec Ideal S24x128 .bf16) (x2 : Vec Ideal S128 .f32)
    (x3 : Vec Ideal S128x128 .bf16) (x4 : Vec Ideal S128 .f32) (x7 : Vec Ideal S128x1 .bf16) (x8 : Vec Ideal S1 .f32)
    (p : Fin 4000) (q : Fin 1) :
    k0_pay2 (F := Ideal) x0 x1 x2 x3 x4 x7 x8 (ix2 p q)
      = Cert.Spec.head (Cert.Spec.hidden (fun k => x0 (ix2 p k)) x1 x2 x3 x4) x7 x8 := by
  obtain rfl : q = 0 := Fin.fin_one_eq_zero q
  unfold k0_pay2
  simp only [addf_apply, shapeCast_self, mm3_apply, bias1_apply, pay1_apply]
  rfl

/-- The sum payload at `(p, q)` is the value head plus the advantage head of the hidden features of row `p`. -/
theorem pay3_apply (x0 : Vec Ideal S4000x24 .bf16) (x1 : Vec Ideal S24x128 .bf16) (x2 : Vec Ideal S128 .f32)
    (x3 : Vec Ideal S128x128 .bf16) (x4 : Vec Ideal S128 .f32) (x5 : Vec Ideal S128x1 .bf16) (x6 : Vec Ideal S1 .f32)
    (x7 : Vec Ideal S128x1 .bf16) (x8 : Vec Ideal S1 .f32) (p : Fin 4000) (q : Fin 1) :
    k0_pay3 (F := Ideal) x0 x1 x2 x3 x4 x5 x6 x7 x8 (ix2 p q)
      = Cert.Spec.head (Cert.Spec.hidden (fun k => x0 (ix2 p k)) x1 x2 x3 x4) x5 x6
        + Cert.Spec.head (Cert.Spec.hidden (fun k => x0 (ix2 p k)) x1 x2 x3 x4) x7 x8 := by
  obtain rfl : q = 0 := Fin.fin_one_eq_zero q
  unfold k0_pay3
  simp only [addf_apply, shapeCast_self, mm3_apply, bias1_apply, pay1_apply, pay2_apply]
  rfl

end Cert.KernelIdeal.Pay

end
-- ==== Proof.KernelValue.lean ====
/-
  The two columns the kernel leaves behind, as functions of the arrays it is launched on.

  Each of the 500 grid points reads 4000 rows of the edge-embedding array and writes the same 4000 rows of two
  columns: the advantage of each edge, and value plus advantage. Row by row the body's arithmetic is the
  network of the specification applied to that edge's row, so what a point writes back is a block of one
  whole-array function; the blocks of rows `4000 t … 4000 t + 3999` tile the 2,000,000 rows, hence after the
  region each column IS that function.
-/
import proofs.«153222_j12867722018988_2_alg».proof.Proof.Windows
import proofs.«153222_j12867722018988_2_alg».proof.Proof.Payload
import proofs.«153222_j12867722018988_2_alg».proof.Proof.Spec

set_option maxRecDepth 16384

noncomputable section

namespace Cert.KernelIdeal.KVal
open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ)

/-! ## The two output columns as functions of the arrays the region finds -/

/-- The advantage of every edge: the advantage head of the hidden features of the edge's row. -/
def advOf (E : (⟨2, ![2000000, 24]⟩ : Shape).Idx → EReal) (W1 : (⟨2, ![24, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wa : (⟨2, ![128, 1]⟩ : Shape).Idx → EReal) (ba : (⟨1, ![1]⟩ : Shape).Idx → EReal) : (⟨2, ![2000000, 1]⟩ : Shape).Idx → EReal :=
  fun i => Cert.Spec.head (Cert.Spec.hidden (fun k => E (ix2 (i 0) k)) W1 b1 W2 b2) Wa ba

/-- Value plus advantage of every edge. -/
def sumOf (E : (⟨2, ![2000000, 24]⟩ : Shape).Idx → EReal) (W1 : (⟨2, ![24, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wv : (⟨2, ![128, 1]⟩ : Shape).Idx → EReal) (bv : (⟨1, ![1]⟩ : Shape).Idx → EReal)
    (Wa : (⟨2, ![128, 1]⟩ : Shape).Idx → EReal) (ba : (⟨1, ![1]⟩ : Shape).Idx → EReal) : (⟨2, ![2000000, 1]⟩ : Shape).Idx → EReal :=
  fun i => advOf E W1 b1 W2 b2 Wv bv i + advOf E W1 b1 W2 b2 Wa ba i

theorem hz2 : (![0, 0] : Fin 2 → Nat) = fun _ => 0 := funext fun a => by fin_cases a <;> rfl
theorem hz1 : (![0] : Fin 1 → Nat) = fun _ => 0 := funext fun a => by fin_cases a <;> rfl

/-! ## What one grid point computes, over any blocks -/

/-- The advantage payload at row `y 0` of a block depends on that row of the edge block only. -/
theorem adv_at (x0 : Vec Ideal S4000x24 .bf16) (x1 : Vec Ideal S24x128 .bf16) (x2 : Vec Ideal S128 .f32)
    (x3 : Vec Ideal S128x128 .bf16) (x4 : Vec Ideal S128 .f32) (x7 : Vec Ideal S128x1 .bf16) (x8 : Vec Ideal S1 .f32) (y : S4000x1.Idx) :
    k0_pay2 (F := Ideal) x0 x1 x2 x3 x4 x7 x8 y
      = Cert.Spec.head (Cert.Spec.hidden (fun k => x0 (ix2 (y 0) k)) x1 x2 x3 x4) x7 x8 := by
  obtain ⟨p, q, rfl⟩ : ∃ (p : Fin 4000) (q : Fin 1), y = ix2 p q := ⟨y 0, y 1, eq_ix2 y⟩
  exact Cert.KernelIdeal.Pay.pay2_apply x0 x1 x2 x3 x4 x7 x8 p q

/-- The same for the sum of the two heads. -/
theorem sum_at (x0 : Vec Ideal S4000x24 .bf16) (x1 : Vec Ideal S24x128 .bf16) (x2 : Vec Ideal S128 .f32)
    (x3 : Vec Ideal S128x128 .bf16) (x4 : Vec Ideal S128 .f32) (x5 : Vec Ideal S128x1 .bf16) (x6 : Vec Ideal S1 .f32)
    (x7 : Vec Ideal S128x1 .bf16) (x8 : Vec Ideal S1 .f32) (y : S4000x1.Idx) :
    k0_pay3 (F := Ideal) x0 x1 x2 x3 x4 x5 x6 x7 x8 y
      = Cert.Spec.head (Cert.Spec.hidden (fun k => x0 (ix2 (y 0) k)) x1 x2 x3 x4) x5 x6
        + Cert.Spec.head (Cert.Spec.hidden (fun k => x0 (ix2 (y 0) k)) x1 x2 x3 x4) x7 x8 := by
  obtain ⟨p, q, rfl⟩ : ∃ (p : Fin 4000) (q : Fin 1), y = ix2 p q := ⟨y 0, y 1, eq_ix2 y⟩
  exact Cert.KernelIdeal.Pay.pay3_apply x0 x1 x2 x3 x4 x5 x6 x7 x8 p q

/-! ## What point `t` writes back -/

/-- Row `y 0` of the edge block at point `t` is the array's row under the output block's row `y 0`. -/
theorem edge_row (c : Dev nD) (t : Fin cfg0.N) (w : Fin 2) (y : S4000x1.Idx) (i : S2000000x1.Idx)
    (hi : (i 0).val = t.val * 4000 + (y 0).val) :
    (fun k : Fin 24 => (iblk m c 0 t : S4000x24.Idx → EReal) (ix2 (y 0) k))
      = fun k => (V m c main_v15 : S2000000x24.Idx → EReal) (ix2 (i 0) k) :=
  funext fun k => edge_block m c t (y 0) k (i 0) hi

/-- Point `t` writes back, as its block of the advantage column, that block of `advOf`. -/
theorem flushed_adv (c : Dev nD) (t : Fin cfg0.N) :
    (dats m 0 c).flushed 10 t = ((cfg0.win 10).blk t).view.read (Elt Ideal)
      (advOf (V m c main_v15) (V m c main_v16) (V m c main_arg4) (V m c main_v17) (V m c main_arg6) (V m c main_v19) (V m c main_arg10)) := by
  show (cfg0.win 10).cut (grid0.coords t) ((dats m 0 c).after 10 t) = _
  rw [after0_10]
  unfold out0_10
  rw [View.canon_unit_zero hz2]
  simp only [View.ld_unit_zero (S := S4000x24) hz2, View.ld_unit_zero (S := S24x128) hz2, View.ld_unit_zero (S := S128) hz1,
    View.ld_unit_zero (S := S128x128) hz2, View.ld_unit_zero (S := S128x1) hz2, View.ld_unit_zero (S := S1) hz1]
  rw [block1, block2, block3, block4, block7, block8]
  obtain ⟨-, -, -, -, -, -, -, -, -, -, -, -, -, -, -, -, e0, e1⟩ := idx_facts t
  funext y
  show k0_pay2 (F := Ideal) (iblk m c 0 t) (V m c main_v16) (V m c main_arg4) (V m c main_v17) (V m c main_arg6) (V m c main_v19) (V m c main_arg10) y
    = advOf (V m c main_v15) (V m c main_v16) (V m c main_arg4) (V m c main_v17) (V m c main_arg6) (V m c main_v19) (V m c main_arg10) (((cfg0.win 10).blk t).view.emb y)
  refine (adv_at _ _ _ _ _ _ _ y).trans ?_
  unfold advOf
  rw [edge_row m c t 0 y (((cfg0.win 10).blk t).view.emb y) (by
    show win0_10.index t (0 : Fin 2) * 4000 + 1 * (y 0).val = t.val * 4000 + (y 0).val; omega)]

/-- Point `t` writes back, as its block of the other column, that block of `sumOf`. -/
theorem flushed_sum (c : Dev nD) (t : Fin cfg0.N) :
    (dats m 0 c).flushed 9 t = ((cfg0.win 9).blk t).view.read (Elt Ideal)
      (sumOf (V m c main_v15) (V m c main_v16) (V m c main_arg4) (V m c main_v17) (V m c main_arg6) (V m c main_v18) (V m c main_arg8) (V m c main_v19) (V m c main_arg10)) := by
  show (cfg0.win 9).cut (grid0.coords t) ((dats m 0 c).after 9 t) = _
  rw [after0_9]
  unfold out0_9
  rw [View.canon_unit_zero hz2]
  simp only [View.ld_unit_zero (S := S4000x24) hz2, View.ld_unit_zero (S := S24x128) hz2, View.ld_unit_zero (S := S128) hz1,
    View.ld_unit_zero (S := S128x128) hz2, View.ld_unit_zero (S := S128x1) hz2, View.ld_unit_zero (S := S1) hz1]
  rw [block1, block2, block3, block4, block5, block6, block7, block8]
  obtain ⟨-, -, -, -, -, -, -, -, -, -, -, -, -, -, e0, e1, -⟩ := idx_facts t
  funext y
  show k0_pay3 (F := Ideal) (iblk m c 0 t) (V m c main_v16) (V m c main_arg4) (V m c main_v17) (V m c main_arg6) (V m c main_v18) (V m c main_arg8) (V m c main_v19) (V m c main_arg10) y
    = sumOf (V m c main_v15) (V m c main_v16) (V m c main_arg4) (V m c main_v17) (V m c main_arg6) (V m c main_v18) (V m c main_arg8) (V m c main_v19) (V m c main_arg10) (((cfg0.win 9).blk t).view.emb y)
  refine (sum_at _ _ _ _ _ _ _ _ _ y).trans ?_
  unfold sumOf advOf
  rw [edge_row m c t 0 y (((cfg0.win 9).blk t).view.emb y) (by
    show win0_9.index t (0 : Fin 2) * 4000 + 1 * (y 0).val = t.val * 4000 + (y 0).val; omega)]

/-! ## The blocks cover the columns -/

theorem mem_blk_adv (t : Fin cfg0.N) (i : S2000000x1.Idx) :
    i ∈ ((cfg0.win 10).blk t).view.set ↔ ∀ a : Fin 2, win0_10.index t a * S4000x1.size a ≤ (i a).val ∧ (i a).val < win0_10.index t a * S4000x1.size a + S4000x1.size a := by
  show i ∈ ((View.whole main_v20_1).slice (win0_10.rect t)).set ↔ _
  rw [View.set_slice_whole, Rect.mem_set_unit]
  exact Iff.rfl

theorem mem_blk_sum (t : Fin cfg0.N) (i : S2000000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v20_0).slice (win0_9.rect t)).set ↔ _
  rw [View.set_slice_whole, Rect.mem_set_unit]
  exact Iff.rfl

/-- Row `r` is written by point `r / 4000`. -/
theorem cover_adv (i : S2000000x1.Idx) : ∃ t : Fin cfg0.N, (cfg0.win 10).flush t = true ∧ i ∈ ((cfg0.win 10).blk t).view.set := by
  have hi0 : (i 0).val < 2000000 := (i 0).isLt
  have hi1 : (i 1).val < 1 := (i 1).isLt
  let t : Fin cfg0.N := ⟨(i 0).val / 4000, by show (i 0).val / 4000 < grid0.N; rw [N_0]; omega⟩
  have ht : t.val = (i 0).val / 4000 := rfl
  obtain ⟨-, -, -, -, -, -, -, -, -, -, -, -, -, -, -, -, e0, e1⟩ := idx_facts t
  refine ⟨t, flush0_10 t, ?_⟩
  rw [mem_blk_adv]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 1 ≤ (i 1).val ∧ (i 1).val < win0_10.index t (1 : Fin 2) * 1 + 1; omega

theorem cover_sum (i : S2000000x1.Idx) : ∃ t : Fin cfg0.N, (cfg0.win 9).flush t = true ∧ i ∈ ((cfg0.win 9).blk t).view.set := by
  have hi0 : (i 0).val < 2000000 := (i 0).isLt
  have hi1 : (i 1).val < 1 := (i 1).isLt
  let t : Fin cfg0.N := ⟨(i 0).val / 4000, by show (i 0).val / 4000 < grid0.N; rw [N_0]; omega⟩
  have ht : t.val = (i 0).val / 4000 := rfl
  obtain ⟨-, -, -, -, -, -, -, -, -, -, -, -, -, -, e0, e1, -⟩ := idx_facts t
  refine ⟨t, flush0_9 t, ?_⟩
  rw [mem_blk_sum]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 1 ≤ (i 1).val ∧ (i 1).val < win0_9.index t (1 : Fin 2) * 1 + 1; omega

/-! ## The two columns after the region -/

theorem final_adv (c : Dev nD) : (dats m 0 c).arrAt 10 cfg0.N
    = advOf (V m c main_v15) (V m c main_v16) (V m c main_arg4) (V m c main_v17) (V m c main_arg6) (V m c main_v19) (V m c main_arg10) :=
  (dats m 0 c).arrAt_eq_of_cover 10 _ (fun t _ => flushed_adv m c t) cover_adv

theorem final_sum (c : Dev nD) : (dats m 0 c).arrAt 9 cfg0.N
    = sumOf (V m c main_v15) (V m c main_v16) (V m c main_arg4) (V m c main_v17) (V m c main_arg6) (V m c main_v18) (V m c main_arg8) (V m c main_v19) (V m c main_arg10) :=
  (dats m 0 c).arrAt_eq_of_cover 9 _ (fun t _ => flushed_sum m c t) cover_sum

end Cert.KernelIdeal.KVal

end
-- ==== Proof.KernelRun.lean ====
/-
  The kernel program's result: its run, read to the end.

  After the region the program sums the advantage column over all 2,000,000 edges, divides by 2,000,000,
  and subtracts that mean from every entry of the value-plus-advantage column; the result is that column
  laid out as a vector. The region's two columns are the functions `sumOf` and `advOf` of the arrays the
  region was launched on, so the result is one explicit function of the argument arrays and of the
  edge-embedding array the lines before the region computed.
-/
import proofs.«153222_j12867722018988_2_alg».proof.Proof.KernelValue

set_option maxRecDepth 16384

noncomputable section

namespace Cert.KernelIdeal.KVal
open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The mean of a column over all its rows, repeated in every row: the sum from zero over the row axis,
    divided by the number of rows. -/
def meanCol (adv : FVec Ideal S2000000x1 .f32) : FVec Ideal S2000000x1 .f32 :=
  broadcastInDim S2000000x1 ![0, 1] bcast_S1x1_S2000000x1_0_1
    (Host.divf (F := Ideal)
      (broadcastInDim S1x1 ![1] bcast_S1_S1x1_1
        (Host.reduceAdd (F := Ideal) adv (constant (F := Ideal) S_ .f32 0x00000000#32) reducesTo_S2000000x1_S1_d0 h_S_))
      (broadcastInDim S1x1 ![] bcast_S_S1x1 (constant (F := Ideal) S_ .f32 0x49F42400#32)))

/-- The program's result from an edge-embedding array and the eight weight arrays:
    (value + advantage) − mean advantage, as a vector over the edges. -/
def resultOf (E : FVec Ideal S2000000x24 .f32) (W1 : FVec Ideal S24x128 .f32) (b1 : FVec Ideal S128 .f32)
    (W2 : FVec Ideal S128x128 .f32) (b2 : FVec Ideal S128 .f32) (Wv : FVec Ideal S128x1 .f32) (bv : FVec Ideal S1 .f32)
    (Wa : FVec Ideal S128x1 .f32) (ba : FVec Ideal S1 .f32) : FVec Ideal S2000000 .f32 :=
  shapeCast S2000000 (subf (sumOf E W1 b1 W2 b2 Wv bv Wa ba) (meanCol (advOf E W1 b1 W2 b2 Wa ba))) shapeCasts_S2000000x1_S2000000

/-- The lines after the region, applied to the two columns the region left. -/
theorem result_eq (c : Dev nD) :
    (Pipeline.afterTail₀ cfgs (dats m) 0 (V0 m) [hostOps1] c main_v27 : S2000000.Idx → EReal)
      = resultOf (V m c main_v15) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v27) = _
  after_results
  rw [Pipeline.withArrays_arr spec0 launch0.win.arr_inj c _ _ 9, Pipeline.withArrays_arr spec0 launch0.win.arr_inj c _ _ 10]
  rw [show (dats m 0 c).arrAt 9 (cfgs 0).N = _ from final_sum m c, show (dats m 0 c).arrAt 10 (cfgs 0).N = _ from final_adv m c]
  rw [entry_v16 m c, entry_v17 m c, entry_v18 m c, entry_v19 m c, V_main_arg4 m c, V_main_arg6 m c, V_main_arg8 m c, V_main_arg10 m c]
  rfl

/-- Every weakly fair execution of the kernel program terminates with its result at `resultOf` of the
    edge-embedding array and the argument arrays, and the arguments unchanged. -/
theorem run : θ_run defs (onTc (τ := τ) (main (F := Ideal))) ⟨m, fun _ => 0, ρ⟩ (fun r => ∀ c : Dev nD,
      r.2.mem ((c.tc : Thread nD τ).loc main_v27) = resultOf (V m c main_v15) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v27 (Pipeline.mem_restRefs_of main_v27 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      ((h c).1 6).trans (((dats m 0 c).arrAt_in 6 rfl _).trans ((A_eq m c 6).trans (V_main_arg8 m c))),
      (((h c).2 main_arg9 (Pipeline.mem_restRefs_of main_arg9 (by decide) (by decide))).trans (W_main_arg9 m (dats m) c)),
      ((h c).1 8).trans (((dats m 0 c).arrAt_in 8 rfl _).trans ((A_eq m c 8).trans (V_main_arg10 m c)))⟩)
    (run_main m ρ)

end Cert.KernelIdeal.KVal

end
-- ==== Proof.RefRead.lean ====
/-
  The reference program's two heads, read at an index.

  The reference computes, for every edge row, two affine layers each followed by the maximum with zero, and
  then two affine heads of width one. Each operation of the program is read at an index through the generated
  per-operation lemmas: a contraction is a finite sum over the contracted axis, a broadcast reads its operand
  at a projected index, and addition and maximum act entry by entry. Composing these readings, the hidden
  features of row `e` are the specification's `hidden` applied to row `e` of the edge-embedding array, and
  each head is the specification's `head` of those hidden features.
-/
import proofs.«153222_j12867722018988_2_alg».proof.Proof.Gen.ReferenceIdeal.Read
import proofs.«153222_j12867722018988_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Read Idealize.ShloMosaic Idealize.ShloMosaic.ValueIdx

/-! ## The composed index maps, in coordinates -/

/-- First contraction, left operand: row `e`, contracted coordinate `k`. -/
theorem lidx15 (e : Fin 2000000) (j : Fin 128) (k : Fin 24) :
    lidx_main_v15 (ix2 e j) k = ix2 e k :=
  funext fun a => Fin.ext (by match a with | ⟨0, _⟩ => rfl | ⟨1, _⟩ => rfl)

/-- First contraction, right operand: contracted coordinate `k`, column `j`. -/
theorem ridx15 (e : Fin 2000000) (j : Fin 128) (k : Fin 24) :
    ridx_main_v15 (ix2 e j) k = ix2 k j :=
  funext fun a => Fin.ext (by match a with | ⟨0, _⟩ => rfl | ⟨1, _⟩ => rfl)

/-- The first bias, broadcast along the rows, is read at its column. -/
theorem bidx17 (e : Fin 2000000) (j : Fin 128) :
    idx_main_v16 (idx_main_v17 (ix2 e j)) = ix1 j :=
  funext fun a => Fin.ext (by match a with | ⟨0, _⟩ => rfl)

/-- Second contraction, left operand. -/
theorem lidx20 (e : Fin 2000000) (j : Fin 128) (k : Fin 128) :
    lidx_main_v20 (ix2 e j) k = ix2 e k :=
  funext fun a => Fin.ext (by match a with | ⟨0, _⟩ => rfl | ⟨1, _⟩ => rfl)

/-- Second contraction, right operand. -/
theorem ridx20 (e : Fin 2000000) (j : Fin 128) (k : Fin 128) :
    ridx_main_v20 (ix2 e j) k = ix2 k j :=
  funext fun a => Fin.ext (by match a with | ⟨0, _⟩ => rfl | ⟨1, _⟩ => rfl)

/-- The second bias, broadcast along the rows, is read at its column. -/
theorem bidx22 (e : Fin 2000000) (j : Fin 128) :
    idx_main_v21 (idx_main_v22 (ix2 e j)) = ix1 j :=
  funext fun a => Fin.ext (by match a with | ⟨0, _⟩ => rfl)

/-! ## The two hidden layers -/

/-- After the first layer, entry `(e, j)` is the specification's first layer of row `e` of the input array. -/
theorem layer1_apply (x0 : (⟨S100000x12, .f32⟩ : BufTy).Contents (Elt Ideal)) (x1 x2 : (⟨S2000000, .i32⟩ : BufTy).Contents (Elt Ideal)) (x3 : (⟨S24x128, .f32⟩ : BufTy).Contents (Elt Ideal)) (x4 : (⟨S128, .f32⟩ : BufTy).Contents (Elt Ideal)) (e : Fin 2000000) (j : Fin 128) :
    val_main_v19 (F := Ideal) x0 x1 x2 x3 x4 (ix2 e j)
      = Cert.Spec.layer1 (fun k => val_main_v14 (F := Ideal) x0 x1 x2 (ix2 e k)) x3 x4 j := by
  rw [val_main_v19_apply, val_main_v18_apply, val_main_v15_apply, val_main_v17_apply, val_main_v16_apply,
    val_main_call0_v0_apply, val_main_call0_cst_apply]
  simp only [lidx15, ridx15, bidx17]
  rfl

/-- After the second layer, entry `(e, j)` is the specification's hidden feature `j` of row `e`. -/
theorem hidden_apply (x0 : (⟨S100000x12, .f32⟩ : BufTy).Contents (Elt Ideal)) (x1 x2 : (⟨S2000000, .i32⟩ : BufTy).Contents (Elt Ideal)) (x3 : (⟨S24x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 2000000) (j : Fin 128) :
    val_main_v24 (F := Ideal) x0 x1 x2 x3 x4 x5 x6 (ix2 e j)
      = Cert.Spec.hidden (fun k => val_main_v14 (F := Ideal) x0 x1 x2 (ix2 e k)) x3 x4 x5 x6 j := by
  rw [val_main_v24_apply, val_main_v23_apply, val_main_v20_apply, val_main_v22_apply, val_main_v21_apply,
    val_main_call1_v0_apply, val_main_call1_cst_apply]
  simp only [lidx20, ridx20, bidx22, layer1_apply]
  rfl

/-! ## The two heads -/

/-- A head's contraction, left operand: row `e`, hidden feature `k`. -/
theorem lidx25 (e : Fin 2000000) (q : Fin 1) (k : Fin 128) :
    lidx_main_v25 (ix2 e q) k = ix2 e k :=
  funext fun a => Fin.ext (by match a with | ⟨0, _⟩ => rfl | ⟨1, _⟩ => rfl)

/-- A head's contraction, right operand: the head has one column, so its column coordinate is `0`. -/
theorem ridx25 (e : Fin 2000000) (q : Fin 1) (k : Fin 128) :
    ridx_main_v25 (ix2 e q) k = ix2 k 0 := by
  rw [Fin.fin_one_eq_zero q]
  exact funext fun a => Fin.ext (by match a with | ⟨0, _⟩ => rfl | ⟨1, _⟩ => rfl)

/-- A head's bias has one entry, read at `0`. -/
theorem bidx27 (e : Fin 2000000) (q : Fin 1) :
    idx_main_v26 (idx_main_v27 (ix2 e q)) = ix1 0 :=
  funext fun a => Fin.ext (by match a with | ⟨0, _⟩ => rfl)

/-- The second head's contraction, left operand: row `e`, hidden feature `k`. -/
theorem lidx29 (e : Fin 2000000) (q : Fin 1) (k : Fin 128) :
    lidx_main_v29 (ix2 e q) k = ix2 e k :=
  funext fun a => Fin.ext (by match a with | ⟨0, _⟩ => rfl | ⟨1, _⟩ => rfl)

/-- The second head's contraction, right operand: one column, so the column coordinate is `0`. -/
theorem ridx29 (e : Fin 2000000) (q : Fin 1) (k : Fin 128) :
    ridx_main_v29 (ix2 e q) k = ix2 k 0 := by
  rw [Fin.fin_one_eq_zero q]
  exact funext fun a => Fin.ext (by match a with | ⟨0, _⟩ => rfl | ⟨1, _⟩ => rfl)

/-- The second head's bias has one entry, read at `0`. -/
theorem bidx31 (e : Fin 2000000) (q : Fin 1) :
    idx_main_v30 (idx_main_v31 (ix2 e q)) = ix1 0 :=
  funext fun a => Fin.ext (by match a with | ⟨0, _⟩ => rfl)

/-- The value head at row `e` is the specification's head of that row's hidden features. -/
theorem value_apply (x0 : (⟨S100000x12, .f32⟩ : BufTy).Contents (Elt Ideal)) (x1 x2 : (⟨S2000000, .i32⟩ : BufTy).Contents (Elt Ideal)) (x3 : (⟨S24x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (e : Fin 2000000) (q : Fin 1) :
    val_main_v28 (F := Ideal) x0 x1 x2 x3 x4 x5 x6 x7 x8 (ix2 e q)
      = Cert.Spec.head (Cert.Spec.hidden (fun k => val_main_v14 (F := Ideal) x0 x1 x2 (ix2 e k)) x3 x4 x5 x6) x7 x8 := by
  rw [val_main_v28_apply, val_main_v25_apply, val_main_v27_apply, val_main_v26_apply]
  simp only [lidx25, ridx25, bidx27, hidden_apply]
  rfl

/-- The advantage head at row `e` is the specification's head of that row's hidden features. -/
theorem adv_apply (x0 : (⟨S100000x12, .f32⟩ : BufTy).Contents (Elt Ideal)) (x1 x2 : (⟨S2000000, .i32⟩ : BufTy).Contents (Elt Ideal)) (x3 : (⟨S24x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S128x1, .f32⟩ : BufTy).Contents (Elt Ideal)) (x10 : (⟨S1, .f32⟩ : BufTy).Contents (Elt Ideal)) (e : Fin 2000000) (q : Fin 1) :
    val_main_v32 (F := Ideal) x0 x1 x2 x3 x4 x5 x6 x9 x10 (ix2 e q)
      = Cert.Spec.head (Cert.Spec.hidden (fun k => val_main_v14 (F := Ideal) x0 x1 x2 (ix2 e k)) x3 x4 x5 x6) x9 x10 := by
  rw [val_main_v32_apply, val_main_v29_apply, val_main_v31_apply, val_main_v30_apply]
  simp only [lidx29, ridx29, bidx31, hidden_apply]
  rfl

end Cert.ReferenceIdeal.RefRead

end
-- ==== Proof.Bridge.lean ====
/-
  The two programs compute one function.

  Reference: value + (advantage − mean advantage), the two heads read off one edge-embedding array.
  Kernel program: (value + advantage) − mean advantage, the two columns written block by block by the region.
  The edge-embedding arrays agree (the kernel program gathers from the node embeddings after a change of
  float format, which is the identity on the extended reals; the index arithmetic before the gathers is the
  same text), the heads are the same row-by-row network, the mean is the same term of the advantage column,
  and the two groupings of the final sum agree because subtraction is addition of the negative and addition
  of extended reals is associative.
-/
import proofs.«153222_j12867722018988_2_alg».proof.Proof.KernelRun
import proofs.«153222_j12867722018988_2_alg».proof.Proof.RefRead
import proofs.«153222_j12867722018988_2_alg».proof.Proof.Gen.ReferenceIdeal.Run
import proofs.«153222_j12867722018988_2_alg».proof.Proof.Gen.ReferenceIdeal.Read
import proofs.«153222_j12867722018988_2_alg».proof.Defs

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.KVal

set_option maxHeartbeats 2000000 in
/-- The edge-embedding array the kernel program's region is launched on is the reference's: both are the rows
    of the node embeddings at the source and at the destination indices, side by side. -/
theorem edge_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v15 : Cert.KernelIdeal.S2000000x24.Idx → EReal)
      = Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v15) = _
  after_results_simp
  rfl

/-- The reference's value column is the specification's value head of every edge's row. -/
theorem ref_value (x0 : (⟨Cert.ReferenceIdeal.S100000x12, .f32⟩ : BufTy).Contents (Elt Ideal)) (x1 : (⟨Cert.ReferenceIdeal.S2000000, .i32⟩ : BufTy).Contents (Elt Ideal)) (x2 : (⟨Cert.ReferenceIdeal.S2000000, .i32⟩ : BufTy).Contents (Elt Ideal)) (x3 : (⟨Cert.ReferenceIdeal.S24x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x1, .f32⟩ : BufTy).Contents (Elt Ideal)) (x8 : (⟨Cert.ReferenceIdeal.S1, .f32⟩ : BufTy).Contents (Elt Ideal)) :
    Cert.ReferenceIdeal.Read.val_main_v28 (F := Ideal) x0 x1 x2 x3 x4 x5 x6 x7 x8
      = advOf (Cert.ReferenceIdeal.Read.val_main_v14 (F := Ideal) x0 x1 x2) x3 x4 x5 x6 x7 x8 :=
  funext fun i => (congrArg (Cert.ReferenceIdeal.Read.val_main_v28 (F := Ideal) x0 x1 x2 x3 x4 x5 x6 x7 x8) (eq_ix2 i)).trans
    (Cert.ReferenceIdeal.RefRead.value_apply x0 x1 x2 x3 x4 x5 x6 x7 x8 (i 0) (i 1))

/-- The reference's advantage column is the specification's advantage head of every edge's row. -/
theorem ref_adv (x0 : (⟨Cert.ReferenceIdeal.S100000x12, .f32⟩ : BufTy).Contents (Elt Ideal)) (x1 : (⟨Cert.ReferenceIdeal.S2000000, .i32⟩ : BufTy).Contents (Elt Ideal)) (x2 : (⟨Cert.ReferenceIdeal.S2000000, .i32⟩ : BufTy).Contents (Elt Ideal)) (x3 : (⟨Cert.ReferenceIdeal.S24x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x9 : (⟨Cert.ReferenceIdeal.S128x1, .f32⟩ : BufTy).Contents (Elt Ideal)) (x10 : (⟨Cert.ReferenceIdeal.S1, .f32⟩ : BufTy).Contents (Elt Ideal)) :
    Cert.ReferenceIdeal.Read.val_main_v32 (F := Ideal) x0 x1 x2 x3 x4 x5 x6 x9 x10
      = advOf (Cert.ReferenceIdeal.Read.val_main_v14 (F := Ideal) x0 x1 x2) x3 x4 x5 x6 x9 x10 :=
  funext fun i => (congrArg (Cert.ReferenceIdeal.Read.val_main_v32 (F := Ideal) x0 x1 x2 x3 x4 x5 x6 x9 x10) (eq_ix2 i)).trans
    (Cert.ReferenceIdeal.RefRead.adv_apply x0 x1 x2 x3 x4 x5 x6 x9 x10 (i 0) (i 1))

/-- The reference's result is the kernel program's function of the same arrays: entry by entry
    `v + (a − μ) = (v + a) − μ`. -/
theorem ref_result (x0 : (⟨Cert.ReferenceIdeal.S100000x12, .f32⟩ : BufTy).Contents (Elt Ideal)) (x1 : (⟨Cert.ReferenceIdeal.S2000000, .i32⟩ : BufTy).Contents (Elt Ideal)) (x2 : (⟨Cert.ReferenceIdeal.S2000000, .i32⟩ : BufTy).Contents (Elt Ideal)) (x3 : (⟨Cert.ReferenceIdeal.S24x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x1, .f32⟩ : BufTy).Contents (Elt Ideal)) (x8 : (⟨Cert.ReferenceIdeal.S1, .f32⟩ : BufTy).Contents (Elt Ideal)) (x9 : (⟨Cert.ReferenceIdeal.S128x1, .f32⟩ : BufTy).Contents (Elt Ideal)) (x10 : (⟨Cert.ReferenceIdeal.S1, .f32⟩ : BufTy).Contents (Elt Ideal)) :
    Cert.ReferenceIdeal.Read.val_main_v40 (F := Ideal) x0 x1 x2 x3 x4 x5 x6 x7 x8 x9 x10
      = resultOf (Cert.ReferenceIdeal.Read.val_main_v14 (F := Ideal) x0 x1 x2) x3 x4 x5 x6 x7 x8 x9 x10 := by
  unfold Cert.ReferenceIdeal.Read.val_main_v40 Cert.ReferenceIdeal.Read.val_main_v39 Cert.ReferenceIdeal.Read.val_main_v38
    Cert.ReferenceIdeal.Read.val_main_v37 Cert.ReferenceIdeal.Read.val_main_v36 Cert.ReferenceIdeal.Read.val_main_v35
    Cert.ReferenceIdeal.Read.val_main_v34 Cert.ReferenceIdeal.Read.val_main_v33 Cert.ReferenceIdeal.Read.val_main_cst
    Cert.ReferenceIdeal.Read.val_main_cst_3
  rw [ref_value, ref_adv]
  unfold resultOf
  refine congrArg (fun z : Cert.KernelIdeal.S2000000x1.Idx → EReal => shapeCast Cert.KernelIdeal.S2000000 z Cert.KernelIdeal.Facts₀.shapeCasts_S2000000x1_S2000000) (funext fun i => ?_)
  exact (Cert.Spec.add_sub_regroup _ _ _).symm

end Cert.Proof.Bridge

end
-- ==== Proof.lean ====
/-
  Equivalence, over the extended reals, of an edge network evaluated block by block with a whole-array
  reference.

  For each of 2,000,000 edges the input row is the pair of its endpoints' node embeddings (24 numbers); two
  affine layers with a maximum against zero give 128 hidden features, and two affine heads give the edge's
  value `v` and advantage `a`. With `μ` the mean advantage over all edges, the reference returns
  `v + (a − μ)`; the kernel program computes `v + a` and `a` in blocks of 4000 edges and returns
  `(v + a) − μ`.

  The proof has four parts. (1) Row by row, the body of the kernel and the reference's chain of whole-array
  operations are the same network: matrix products are plain sums over the contracted axis, changes of float
  format are the identity. (2) Grid point `t` writes rows `4000 t … 4000 t + 3999` of the two output columns,
  and these blocks tile the rows, so after the region each column is one whole-array function. (3) The
  edge-embedding arrays of the two programs are the same term of the arguments. (4) The mean is the same term of
  the same advantage column, and `(v + a) − μ = v + (a − μ)` holds on the extended reals without any
  finiteness assumption, because subtraction is addition of the negative and addition is associative.
  Nothing in the proof uses the precondition. The idealization pass rewrote nothing, so the preservation claim
  is trivial, and each program's frame is its generated run.
-/
import proofs.«153222_j12867722018988_2_alg».proof.Defs
import proofs.«153222_j12867722018988_2_alg».proof.Proof.Gen.Kernel
import proofs.«153222_j12867722018988_2_alg».proof.Proof.Gen.Kernel.Skeleton
import proofs.«153222_j12867722018988_2_alg».proof.Proof.Gen.Kernel.Launch
import proofs.«153222_j12867722018988_2_alg».proof.Proof.Gen.Kernel.Points
import proofs.«153222_j12867722018988_2_alg».proof.Proof.Gen.Kernel.Frame
import proofs.«153222_j12867722018988_2_alg».proof.Proof.Gen.KernelIdeal
import proofs.«153222_j12867722018988_2_alg».proof.Proof.Gen.KernelIdeal.Skeleton
import proofs.«153222_j12867722018988_2_alg».proof.Proof.Gen.KernelIdeal.Launch
import proofs.«153222_j12867722018988_2_alg».proof.Proof.Gen.KernelIdeal.Points
import proofs.«153222_j12867722018988_2_alg».proof.Proof.Gen.KernelIdeal.Frame
import proofs.«153222_j12867722018988_2_alg».proof.Proof.Gen.ReferenceIdeal
import proofs.«153222_j12867722018988_2_alg».proof.Proof.Gen.ReferenceIdeal.Run
import proofs.«153222_j12867722018988_2_alg».proof.Proof.Gen.ReferenceIdeal.Read
import proofs.«153222_j12867722018988_2_alg».proof.Proof.Gen.Pre_finite_inputs
import proofs.«153222_j12867722018988_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `resultOf` of the kernel program's edge-embedding array and the eight weight
    arrays: the kernel program by its run, the reference by its run rewritten along the agreement of the
    arguments. -/
theorem algebraic : Cert.algebraic_KernelIdeal_ReferenceIdeal := by
  intro m ρ m' ρ' _ hagree
  refine ⟨fun c => Cert.KernelIdeal.KVal.resultOf (Cert.KernelIdeal.Gen.V m c Cert.KernelIdeal.main_v15)
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq, a0, a1, a2, a3, a4, a5, a6, a7, a8, a9, a10,
    Cert.Proof.Bridge.ref_result]
  beta_reduce
  rw [Cert.Proof.Bridge.edge_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
